-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : FVec F S50000x128 .f32) (main_arg2 : IVec S2x600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S2000x128 : Shape := ⟨2, ![2000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩

abbrev nBuf : Space → Nat
  | .hbm => 55
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S1x128, .f32⟩
  | .hbm, ⟨14, _⟩ => ⟨S1x128, .f32⟩
  | .hbm, ⟨15, _⟩ => ⟨S100000x128, .f32⟩
  | .hbm, ⟨16, _⟩ => ⟨S100000x128, .f32⟩
  | .hbm, ⟨17, _⟩ => ⟨S128x128, .f32⟩
  | .hbm, ⟨18, _⟩ => ⟨S128x128, .f32⟩
  | .hbm, ⟨19, _⟩ => ⟨S1x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S1x600000, .i32⟩
  | .hbm, ⟨24, _⟩ => ⟨S600000, .i32⟩
  | .hbm, ⟨25, _⟩ => ⟨S1x600000, .i32⟩
  | .hbm, ⟨26, _⟩ => ⟨S600000, .i32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S_, .f32⟩
  | .hbm, ⟨50, _⟩ => ⟨S100000x128, .f32⟩
  | .hbm, ⟨51, _⟩ => ⟨S600000x1, .i32⟩
  | .hbm, ⟨52, _⟩ => ⟨S100000x128, .f32⟩
  | .hbm, ⟨53, _⟩ => ⟨S100000x128, .f32⟩
  | .hbm, ⟨54, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S2000x128_S2000x128_0_0 : ∀ a, (![0, 0] : Fin 2 → Nat) a + S2000x128.size a ≤ S2000x128.size a
  h_S2000x128 : 0 < S2000x128.numel
  broadcasts_S1x128_S2000x128 : S1x128.Broadcasts S2000x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S100000x128 : S_.BroadcastsInDim S100000x128 (![] : Fin 0 → Fin S100000x128.rank)
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S128x128, .f32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S128x128, .f32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S50000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S128x128, .f32⟩
  | .hbm, ⟨35, _⟩ => ⟨S600000x128, .f32⟩
  | .hbm, ⟨36, _⟩ => ⟨S1x128, .f32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S128x128, .f32⟩
  | .hbm, ⟨53, _⟩ => ⟨S600000x128, .f32⟩
  | .hbm, ⟨54, _⟩ => ⟨S1x128, .f32⟩
  | .hbm, ⟨55, _⟩ => ⟨S600000x128, .f32⟩
  | .hbm, ⟨56, _⟩ => ⟨S600000x128, .f32⟩
  | .hbm, ⟨57, _⟩ => ⟨S_, .f32⟩
  | .hbm, ⟨58, _⟩ => ⟨S100000x128, .f32⟩
  | .hbm, ⟨59, _⟩ => ⟨S600000x1, .i32⟩
  | .hbm, ⟨60, _⟩ => ⟨S100000x128, .f32⟩
  | .hbm, ⟨61, _⟩ => ⟨S100000x128, .f32⟩
  | .hbm, ⟨62, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_1 : Ref sig .tc := ⟨.hbm, 43, rfl⟩
abbrev main_v29 : Ref sig .tc := ⟨.hbm, 44, rfl⟩
abbrev main_v30 : Ref sig .tc := ⟨.hbm, 45, rfl⟩
abbrev main_c_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KernelRun.lean ====
/-
  The idealized kernel's run with every buffer named.

  The program is five stretches in a row: a few host operations, the first kernel region, a few host operations, the second
  kernel region, and the host operations that gather, sum by segment and add. The buffer contents at each boundary are a fold
  from the launch memory: a host stretch applies its operations, a region replaces each of its output arrays by what its
  write-backs leave and keeps everything else. This module runs the five stretches and keeps, for EVERY buffer that outlives
  the regions, what the fold says it holds at the end — the results included, not only the arguments.
-/
import proofs.«115144_j54176717472255_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and at the end each buffer that outlives the regions holds what
    the fold through the five stretches gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- A buffer of @main that no region scopes is read at the end of the run through the fold. -/
theorem at_end (r : PUnit × MemSt nD τ sig (Elt F))
    (h : ∀ c : Dev nD, ∀ b ∈ Pipeline.ucRefs τ sig, r.2.mem (((c : Thread nD τ)).1, b) = W5 m ρ c b)
    (c : Dev nD) (b : Ref sig .tc) (hb : ¬ (Proc.devRef .tc b : DevRef τ sig).isScoped) :
    r.2.mem ((c : Thread nD τ).loc b) = W5 m ρ c (Proc.devRef .tc b) :=
  h c _ (mem_uc b hb)

end Cert.KernelIdeal.Whole

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibRowGather.lean ====
/-
  Rows gathered and scatter-added through an index column.

  For an array `H : [N, C]` and a column of start indices `idx : [E, 1]`, the gather that takes row `idx[e]` for every
  `e` reads `H` at the start index taken signed and clamped into `[0, N - 1]`; the same for a vector `D : [N]`. The
  scatter-add of updates `u : [E, C]` through a column of indices adds `u[e, c]` to element `(idx[e], c)` when the
  signed index lies in `[0, N)` and drops it otherwise. So an update that lands on row `n` has index word `n`, and
  a factor that depends only on the landing row — nonnegative and not `+∞`, so that it distributes over a sum of
  extended reals — moves out of the scatter-add.
-/
import Mathlib
import Idealize.ShloMosaic.PureOps.Ideal
import Idealize.ShloMosaic.PureOps.Ideal.Laws
import Idealize.ShloMosaic.Lib.ValueIdx

noncomputable section

open scoped BigOperators

namespace Cert.LibRowGather

open Idealize.ShloMosaic Idealize.ShloMosaic.ValueIdx

variable {α : Type}

/-- Dimension numbers of `D[idx]` for `D : [N]`, `idx : [E, 1]`, result `[E]`. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of `H[idx]` (whole rows) for `H : [N, C]`, `idx : [E, 1]`, result `[E, C]`. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of the row scatter: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The index-column position of edge `e`. -/
abbrev edgeIdx {E : Nat} (e : Fin E) : (⟨2, ![E, 1]⟩ : Shape).Idx := ix2 e (0 : Fin 1)

/-- A start-index word read signed and clamped into `[0, N - 1]`. -/
def rowOf (N : Nat) (hN : 0 < N) {w : Nat} (b : BitVec w) : Fin N := ⟨min b.toInt.toNat (N - 1), by omega⟩

/-- A word whose signed value is a row number below `N` clamps to that row. -/
theorem rowOf_of_toInt {N : Nat} (hN : 0 < N) {w : Nat} (b : BitVec w) (n : Fin N) (h : b.toInt = (n.val : ℤ)) :
    rowOf N hN b = n := by
  refine Fin.ext ?_
  unfold rowOf
  show min b.toInt.toNat (N - 1) = n.val
  rw [h, Int.toNat_natCast]
  have := n.isLt
  omega

/-- The vector gather at edge `e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf N hN (idx (edgeIdx e)))) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = edgeIdx e := by
    funext b; refine Fin.ext ?_
    match b with
    | ⟨0, _⟩ => rfl
    | ⟨1, _⟩ => rfl
  rw [hsi]
  rfl

/-- The row gather at edge `e`, lane `c`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (rowOf N hN (idx (edgeIdx e))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = edgeIdx e := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (show ¬ (1 : Fin 2) ∈ (rowDims N E C wf).startIndexMap from
        (by decide : ¬ (1 : Fin 2) ∈ ([0] : List (Fin 2))))]
    have ho : (rowDims N E C wf).offCoord (ix2 e c) 1 = c.val := by
      unfold GatherDims.offCoord
      rw [dif_pos (show (1 : Fin 2) ∈ (rowDims N E C wf).sKept from
        (GatherDims.mem_sKept _ _).mpr ⟨(by decide : ¬ (1 : Fin 2) ∈ ([0] : List (Fin 2))), List.not_mem_nil⟩)]
      rfl
    rw [hs, ho, Nat.zero_add]

/-- An update `(e, c)` that the row scatter lands on element `(n, c')` has index word `n` (signed) and `c = c'`. -/
theorem scatter_row_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C)
    (h : (rowScatterDims N E C wf).resultIdx? (ix2 e c) idx = some (ix2 n c')) :
    (idx (edgeIdx e)).toInt = (n.val : ℤ) ∧ c = c' := by
  have hs0 : (rowScatterDims N E C wf).start (ix2 e c) idx 0 = (idx (edgeIdx e)).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = edgeIdx e := by
      funext b; refine Fin.ext ?_
      match b with
      | ⟨0, _⟩ => rfl
      | ⟨1, _⟩ => rfl
    rw [hsi]
  have hs1 : (rowScatterDims N E C wf).start (ix2 e c) idx 1 = 0 := by
    unfold ScatterDims.start
    rw [dif_neg (show ¬ (1 : Fin 2) ∈ (rowScatterDims N E C wf).scatterDimsToOperandDims from
      (by decide : ¬ (1 : Fin 2) ∈ ([0] : List (Fin 2))))]
  have hw0 : (rowScatterDims N E C wf).window (ix2 e c) 0 = 0 := by
    unfold ScatterDims.window
    rw [dif_neg (show ¬ (0 : Fin 2) ∈ (rowScatterDims N E C wf).sKept from
      (by decide : ¬ (0 : Fin 2) ∈ (List.finRange 2).filter (fun a => a ∉ ([0] : List (Fin 2)))))]
  have hw1 : (rowScatterDims N E C wf).window (ix2 e c) 1 = c.val := by
    unfold ScatterDims.window
    rw [dif_pos (show (1 : Fin 2) ∈ (rowScatterDims N E C wf).sKept from
      (by decide : (1 : Fin 2) ∈ (List.finRange 2).filter (fun a => a ∉ ([0] : List (Fin 2)))))]
    rfl
  unfold ScatterDims.resultIdx? at h
  split at h
  · rename_i hall
    have h' := Option.some.inj h
    have h0 : ((rowScatterDims N E C wf).start (ix2 e c) idx 0 + (rowScatterDims N E C wf).window (ix2 e c) 0).toNat
        = n.val := congrArg (fun f => (f 0).val) h'
    have h1 : ((rowScatterDims N E C wf).start (ix2 e c) idx 1 + (rowScatterDims N E C wf).window (ix2 e c) 1).toNat
        = c'.val := congrArg (fun f => (f 1).val) h'
    have ha0 := (hall 0).1
    rw [hs0, hw0] at h0 ha0
    rw [hs1, hw1] at h1
    refine ⟨?_, Fin.ext ?_⟩
    · omega
    · omega
  · exact absurd h (by simp)

/-- A nonnegative factor other than `+∞` distributes over a finite sum of extended reals. -/
theorem mul_sum_of_nonneg_ne_top {ι : Type*} (s : Finset ι) (f : ι → EReal) {a : EReal} (h0 : 0 ≤ a) (ht : a ≠ ⊤) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- A factor `a` (nonnegative, not `+∞`) carried by every update that lands on element `i` moves out of the
    scatter-add into zero at `i`. -/
theorem hostScatterAdd_scale {s si su : Shape} (d : ScatterDims s si su) {w : Nat} (Z : s.Idx → EReal) (idx : IVec si w)
    (f g : su.Idx → EReal) (i : s.Idx) (hZ : Z i = 0) {a : EReal} (h0 : 0 ≤ a) (ht : a ≠ ⊤)
    (hfg : ∀ j, d.resultIdx? j idx = some i → f j = a * g j) :
    Ideal.hostScatterAdd d Z idx f i = a * Ideal.hostScatterAdd d Z idx g i := by
  show Z i + _ = a * (Z i + _)
  rw [hZ, zero_add, zero_add, mul_sum_of_nonneg_ne_top _ _ h0 ht]
  refine Finset.sum_congr rfl fun j hj => ?_
  exact hfg j (Finset.mem_filter.mp hj).2

/-- Equal updates on what lands at `i` give equal scatter-adds at `i`. -/
theorem hostScatterAdd_congr {s si su : Shape} (d : ScatterDims s si su) {w : Nat} (Z Z' : s.Idx → EReal) (idx : IVec si w)
    (f g : su.Idx → EReal) (i : s.Idx) (hZ : Z i = Z' i)
    (hfg : ∀ j, d.resultIdx? j idx = some i → f j = g j) :
    Ideal.hostScatterAdd d Z idx f i = Ideal.hostScatterAdd d Z' idx g i := by
  show Z i + _ = Z' i + _
  rw [hZ]
  congr 1
  refine Finset.sum_congr rfl fun j hj => ?_
  exact hfg j (Finset.mem_filter.mp hj).2

/-- The reciprocal square root of an extended real that is at least one is a nonnegative extended real other than `+∞`. -/
theorem rsqrt_of_one_le (y : EReal) (h : 1 ≤ y) : 0 ≤ Ideal.rsqrt y ∧ Ideal.rsqrt y ≠ ⊤ := by
  induction y using EReal.rec with
  | bot => exact absurd h (not_le.mpr (EReal.bot_lt_coe 1))
  | top => exact ⟨le_refl _, EReal.zero_ne_top⟩
  | coe r =>
    have hr : (1 : ℝ) ≤ r := by exact_mod_cast h
    have h1 : ¬ r < 0 := by linarith
    have h2 : ¬ r = 0 := by intro h0; rw [h0] at hr; linarith
    have hv : Ideal.rsqrt (r : EReal) = (((Real.sqrt r)⁻¹ : ℝ) : EReal) := by
      show (if r < 0 then ⊥ else if r = 0 then ⊤ else (((Real.sqrt r)⁻¹ : ℝ) : EReal)) = _
      rw [if_neg h1, if_neg h2]
    rw [hv]
    exact ⟨EReal.coe_nonneg.mpr (inv_nonneg.mpr (Real.sqrt_nonneg r)), EReal.coe_ne_top _⟩

end Cert.LibRowGather

end
-- ==== Proof.LibRowScatterSum.lean ====
/-
  A row scatter-add through an index column, read at an entry as a sum over the edges that land on the row.

  For an operand [N, C], indices [E, 1] and updates [E, C], update (e, c) lands on entry (n, c') exactly when
  the signed index word of e is n and c = c'. So the scatter-add at entry (n, c) is the operand's entry plus the sum,
  over the edges e whose word is n, of the update (e, c); and the same for a vector operand [N] with updates [E].
-/
import Mathlib
import Idealize.ShloMosaic.PureOps.Ideal
import Idealize.ShloMosaic.PureOps.Ideal.Laws
import Idealize.ShloMosaic.Lib.ValueIdx
import proofs.«115144_j54176717472255_1_alg».proof.Proof.LibRowGather

noncomputable section

open scoped BigOperators

namespace Cert.LibRowScatterSum

open Idealize.ShloMosaic Idealize.ShloMosaic.ValueIdx Cert.LibRowGather

variable {N E C w : Nat} (wf : ScatterDims.WF ⟨2, ![N, C]⟩ ⟨2, ![E, 1]⟩ ⟨2, ![E, C]⟩ [1] [0] [0] 1)

/-- The window of update (e, c) starts, on the row axis, at the signed index word of e. -/
theorem start_row (idx : IVec ⟨2, ![E, 1]⟩ w) (e : Fin E) (c : Fin C) :
    (rowScatterDims N E C wf).start (ix2 e c) idx 0 = (idx (edgeIdx e)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = edgeIdx e := by
    funext b; refine Fin.ext ?_
    match b with
    | ⟨0, _⟩ => rfl
    | ⟨1, _⟩ => rfl
  rw [hsi]

/-- … and, on the lane axis, at zero. -/
theorem start_lane (idx : IVec ⟨2, ![E, 1]⟩ w) (e : Fin E) (c : Fin C) :
    (rowScatterDims N E C wf).start (ix2 e c) idx 1 = 0 := by
  unfold ScatterDims.start
  rw [dif_neg (show ¬ (1 : Fin 2) ∈ (rowScatterDims N E C wf).scatterDimsToOperandDims from
    (by decide : ¬ (1 : Fin 2) ∈ ([0] : List (Fin 2))))]

/-- The window coordinate of update (e, c) is zero on the row axis … -/
theorem window_row (e : Fin E) (c : Fin C) : (rowScatterDims N E C wf).window (ix2 e c) 0 = 0 := by
  unfold ScatterDims.window
  rw [dif_neg (show ¬ (0 : Fin 2) ∈ (rowScatterDims N E C wf).sKept from
    (by decide : ¬ (0 : Fin 2) ∈ (List.finRange 2).filter (fun a => a ∉ ([0] : List (Fin 2)))))]

/-- … and its lane on the lane axis. -/
theorem window_lane (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (fun a => a ∉ ([0] : List (Fin 2)))))]
  rfl

/-- Update (e, c) lands on entry (n, c') exactly when the signed word of e is n and the lanes agree. -/
theorem lands_iff (idx : IVec ⟨2, ![E, 1]⟩ w) (e : Fin E) (c : Fin C) (n : Fin N) (c' : Fin C) :
    (rowScatterDims N E C wf).resultIdx? (ix2 e c) idx = some (ix2 n c')
      ↔ (idx (edgeIdx e)).toInt = (n.val : ℤ) ∧ c = c' := by
  constructor
  · exact scatter_row_lands wf idx e c n c'
  · rintro ⟨hw, rfl⟩
    have hall : ∀ a, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := by
      intro a
      match a with
      | ⟨0, _⟩ =>
        have h0 := start_row wf idx e c
        have h1 := window_row wf e c
        have hn := n.isLt
        show 0 ≤ (rowScatterDims N E C wf).start (ix2 e c) idx 0 + ((rowScatterDims N E C wf).window (ix2 e c) 0 : ℤ)
          ∧ (rowScatterDims N E C wf).start (ix2 e c) idx 0 + ((rowScatterDims N E C wf).window (ix2 e c) 0 : ℤ) < (N : ℤ)
        rw [h0, h1, hw]; constructor <;> omega
      | ⟨1, _⟩ =>
        have h0 := start_lane wf idx e c
        have h1 := window_lane wf e c
        have hc := c.isLt
        show 0 ≤ (rowScatterDims N E C wf).start (ix2 e c) idx 1 + ((rowScatterDims N E C wf).window (ix2 e c) 1 : ℤ)
          ∧ (rowScatterDims N E C wf).start (ix2 e c) idx 1 + ((rowScatterDims N E C wf).window (ix2 e c) 1 : ℤ) < (C : ℤ)
        rw [h0, h1]; constructor <;> omega
    unfold ScatterDims.resultIdx?
    rw [dif_pos hall]
    refine congrArg some ?_
    funext a
    refine Fin.ext ?_
    match a with
    | ⟨0, _⟩ =>
      show ((rowScatterDims N E C wf).start (ix2 e c) idx 0 + ((rowScatterDims N E C wf).window (ix2 e c) 0 : ℤ)).toNat = n.val
      rw [start_row wf idx e c, window_row wf e c, hw]; omega
    | ⟨1, _⟩ =>
      show ((rowScatterDims N E C wf).start (ix2 e c) idx 1 + ((rowScatterDims N E C wf).window (ix2 e c) 1 : ℤ)).toNat = c.val
      rw [start_lane wf idx e c, window_lane wf e c]; omega

/-- The row scatter-add at entry (n, c): the operand's entry plus the updates (e, c) of the edges whose word is n. -/
theorem hostScatterAdd_rows_apply (Z : (⟨2, ![N, C]⟩ : Shape).Idx → EReal) (idx : IVec ⟨2, ![E, 1]⟩ w)
    (u : (⟨2, ![E, C]⟩ : Shape).Idx → EReal) (n : Fin N) (c : Fin C) :
    Ideal.hostScatterAdd (rowScatterDims N E C wf) Z idx u (ix2 n c)
      = Z (ix2 n c) + ∑ e ∈ Finset.univ.filter (fun e : Fin E => (idx (edgeIdx e)).toInt = (n.val : ℤ)), u (ix2 e c) := by
  classical
  show Z (ix2 n c) + _ = _
  congr 1
  rw [Finset.sum_filter, sum_idx2, Finset.sum_filter]
  refine Finset.sum_congr rfl fun e _ => ?_
  by_cases hw : (idx (edgeIdx e)).toInt = (n.val : ℤ)
  · rw [if_pos hw, Finset.sum_eq_single c]
    · rw [if_pos ((lands_iff wf idx e c n c).mpr ⟨hw, rfl⟩)]
    · intro c₁ _ hne
      rw [if_neg]
      intro h
      exact hne ((lands_iff wf idx e c₁ n c).mp h).2
    · intro h; exact absurd (Finset.mem_univ c) h
  · rw [if_neg hw]
    refine Finset.sum_eq_zero fun c₁ _ => ?_
    rw [if_neg]
    intro h
    exact hw ((lands_iff wf idx e c₁ n c).mp h).1

end Cert.LibRowScatterSum

end
-- ==== Proof.LibRowDims.lean ====
/-
  Row gathers and row scatter-adds through an index column, for any dimension-number record with the right fields.

  A record of gather (or scatter) dimension numbers is determined by its fields. So the readings of the row gather and of
  the row scatter-add at an entry hold for every record whose fields say "rows through an index column", whatever name a
  program gives that record.
-/
import Mathlib
import Idealize.ShloMosaic.PureOps.Ideal
import Idealize.ShloMosaic.PureOps.Ideal.Laws
import Idealize.ShloMosaic.Lib.ValueIdx
import proofs.«115144_j54176717472255_1_alg».proof.Proof.LibRowGather
import proofs.«115144_j54176717472255_1_alg».proof.Proof.LibRowScatterSum

noncomputable section

open scoped BigOperators

namespace Cert.LibRowDims

open Idealize.ShloMosaic Idealize.ShloMosaic.ValueIdx Cert.LibRowGather

variable {N E C w : Nat}

/-- The row scatter-add at entry (n, c), for any record with the row-scatter fields. -/
theorem hostScatterAdd_rows_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (Z : (⟨2, ![N, C]⟩ : Shape).Idx → EReal) (idx : IVec ⟨2, ![E, 1]⟩ w)
    (u : (⟨2, ![E, C]⟩ : Shape).Idx → EReal) (n : Fin N) (c : Fin C) :
    Ideal.hostScatterAdd d Z idx u (ix2 n c)
      = Z (ix2 n c) + ∑ e ∈ Finset.univ.filter (fun e : Fin E => (idx (edgeIdx e)).toInt = (n.val : ℤ)), u (ix2 e c) := by
  obtain ⟨uw, iw, sd, iv, wf⟩ := d
  dsimp only at h1 h2 h3 h4
  subst h1 h2 h3 h4
  exact Cert.LibRowScatterSum.hostScatterAdd_rows_apply wf Z idx u n c

/-- The row gather at edge e, lane c, for any record with the row-gather fields. -/
theorem gather_row_apply {α : Type} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 (rowOf N hN (idx (edgeIdx e))) c) := by
  obtain ⟨od, cs, ob, sb, sm, iv, ss, wf⟩ := d
  dsimp only at h1 h2 h3 h4 h5 h6 h7
  subst h1 h2 h3 h4 h5 h6 h7
  exact Cert.LibRowGather.gather_row_apply hN wf x idx e c

end Cert.LibRowDims

end
-- ==== Proof.LibAffineRows.lean ====
/-
  Rows through an affine map, and a row gather of them.

  For x of shape [R, K], w of shape [K, C] and a bias row b of shape [1, C], the affine map of rows is
      lin x w b [r, c] = (Σ_k x[r, k] · w[k, c]) + b[0, c].
  Over the extended reals:
    * the host's matrix product x · w plus the bias row broadcast down the rows is `lin x w b`   (`host_affine`);
    * a bias vector [C] broadcast to a row [1, C] is that vector recast as a row                  (`bias_row`);
    * row e of `lin x w b` depends on row e of x alone, so gathering rows of x through an index column and then
      applying the map gives the gathered rows of `lin x w b`                                    (`gather_affine`).
  Each is an identity of sums term by term: nothing here needs finiteness.
-/
import Mathlib
import Idealize.ShloMosaic.PureOps.Ideal
import Idealize.ShloMosaic.PureOps.Ideal.Laws
import Idealize.ShloMosaic.Lib.ValueIdx
import Idealize.ShloMosaic.Lib.Pipeline.Value
import proofs.«115144_j54176717472255_1_alg».proof.Proof.LibDotRows
import proofs.«115144_j54176717472255_1_alg».proof.Proof.LibRowGather
import proofs.«115144_j54176717472255_1_alg».proof.Proof.LibRowDims

noncomputable section

open scoped BigOperators

namespace Cert.LibAffineRows

open Idealize.ShloMosaic Idealize.ShloMosaic.ValueIdx Cert.LibRowGather

variable {R K C : Nat}

/-- The affine map of rows: entry (r, c) is the product of row r of x with column c of w, plus the bias row's entry c. -/
def lin (x : FVec Ideal ⟨2, ![R, K]⟩ .f32) (w : FVec Ideal ⟨2, ![K, C]⟩ .f32) (b : FVec Ideal ⟨2, ![1, C]⟩ .f32) :
    FVec Ideal ⟨2, ![R, C]⟩ .f32 :=
  fun i => (∑ k : Fin K, x (ix2 (i 0) k) * w (ix2 k (i 1))) + b (ix2 (0 : Fin 1) (i 1))

theorem lin_apply (x : FVec Ideal ⟨2, ![R, K]⟩ .f32) (w : FVec Ideal ⟨2, ![K, C]⟩ .f32) (b : FVec Ideal ⟨2, ![1, C]⟩ .f32)
    (r : Fin R) (c : Fin C) :
    lin x w b (ix2 r c) = (∑ k : Fin K, x (ix2 r k) * w (ix2 k c)) + b (ix2 (0 : Fin 1) c) := rfl

/-- The host's product plus the bias row broadcast along the rows is the affine map. -/
theorem host_affine (d : DotDims ⟨2, ![R, K]⟩ ⟨2, ![K, C]⟩ ⟨2, ![R, C]⟩) (hd : d = DotDims.plain R K C)
    (hb : (⟨2, ![1, C]⟩ : Shape).BroadcastsInDim ⟨2, ![R, C]⟩ (![0, 1] : Fin 2 → Fin 2))
    (x : FVec Ideal ⟨2, ![R, K]⟩ .f32) (w : FVec Ideal ⟨2, ![K, C]⟩ .f32) (b : FVec Ideal ⟨2, ![1, C]⟩ .f32) :
    addf (Host.dotGeneral (F := Ideal) d none x w) (broadcastInDim ⟨2, ![R, C]⟩ ![0, 1] hb b) = lin x w b := by
  subst hd
  funext i
  obtain ⟨r, c, rfl⟩ : ∃ (r : Fin R) (c : Fin C), i = ix2 r c := ⟨i 0, i 1, eq_ix2 i⟩
  rw [addf_apply, Cert.Lib.DotRows.dotGeneral_plain_apply, lin_apply]
  refine congrArg (_ + ·) ?_
  refine broadcastInDim_apply _ hb b (ix2 r c) (ix2 (0 : Fin 1) c) fun a => ?_
  match a with
  | ⟨0, _⟩ => rfl
  | ⟨1, _⟩ =>
    show c.val = if C = 1 then 0 else c.val
    split
    · have := c.isLt; omega
    · rfl

/-- A bias vector broadcast to a row is the vector recast as a row. -/
theorem bias_row (hb : (⟨1, ![C]⟩ : Shape).BroadcastsInDim ⟨2, ![1, C]⟩ (![1] : Fin 1 → Fin 2))
    (hc : (⟨1, ![C]⟩ : Shape).ShapeCasts ⟨2, ![1, C]⟩) (b : FVec Ideal ⟨1, ![C]⟩ .f32) :
    broadcastInDim ⟨2, ![1, C]⟩ ![1] hb b = shapeCast ⟨2, ![1, C]⟩ b hc := by
  funext i
  obtain ⟨z, c, rfl⟩ : ∃ (z : Fin 1) (c : Fin C), i = ix2 z c := ⟨i 0, i 1, eq_ix2 i⟩
  rw [broadcastInDim_apply _ hb b (ix2 z c) (ix1 c) (fun a => by
        match a with
        | ⟨0, _⟩ =>
          show c.val = if C = 1 then 0 else c.val
          split
          · have := c.isLt; omega
          · rfl),
      shapeCast_apply b hc (ix2 z c) (ix1 c) (by
        rw [Shape.rowMajor_val_one, Shape.rowMajor_val_two]
        have := z.isLt
        show c.val = z.val * C + c.val
        have hz : z.val = 0 := by omega
        rw [hz]; omega)]

/-- Gathering rows and then applying the affine map is gathering the rows of the mapped array. -/
theorem gather_affine {E w : Nat} (hR : 0 < R)
    (dx : GatherDims ⟨2, ![R, K]⟩ ⟨2, ![E, 1]⟩ ⟨2, ![E, K]⟩)
    (hx1 : dx.offsetDims = [1]) (hx2 : dx.collapsedSliceDims = [0]) (hx3 : dx.operandBatchingDims = [])
    (hx4 : dx.startIndicesBatchingDims = []) (hx5 : dx.startIndexMap = [0]) (hx6 : dx.indexVectorDim = 1)
    (hx7 : dx.sliceSizes = ![1, K])
    (dy : GatherDims ⟨2, ![R, C]⟩ ⟨2, ![E, 1]⟩ ⟨2, ![E, C]⟩)
    (hy1 : dy.offsetDims = [1]) (hy2 : dy.collapsedSliceDims = [0]) (hy3 : dy.operandBatchingDims = [])
    (hy4 : dy.startIndicesBatchingDims = []) (hy5 : dy.startIndexMap = [0]) (hy6 : dy.indexVectorDim = 1)
    (hy7 : dy.sliceSizes = ![1, C])
    (x : FVec Ideal ⟨2, ![R, K]⟩ .f32) (wt : FVec Ideal ⟨2, ![K, C]⟩ .f32) (b : FVec Ideal ⟨2, ![1, C]⟩ .f32)
    (idx : IVec ⟨2, ![E, 1]⟩ w) :
    lin (Host.gather dx x idx) wt b = Host.gather dy (lin x wt b) idx := by
  funext i
  obtain ⟨e, c, rfl⟩ : ∃ (e : Fin E) (c : Fin C), i = ix2 e c := ⟨i 0, i 1, eq_ix2 i⟩
  rw [Cert.LibRowDims.gather_row_apply hR dy hy1 hy2 hy3 hy4 hy5 hy6 hy7 (lin x wt b) idx e c, lin_apply, lin_apply]
  refine congrArg (· + _) (Finset.sum_congr rfl fun k _ => ?_)
  rw [Cert.LibRowDims.gather_row_apply hR dx hx1 hx2 hx3 hx4 hx5 hx6 hx7 x idx e k]

end Cert.LibAffineRows

end
-- ==== Proof.LibDotForms.lean ====
/-
  Two matrix products of a kernel read entry by entry over the extended reals, whatever precision the product asks for.

  Over the extended reals a product's precision attribute changes nothing. For a left operand [M, K]:
    * against a right operand [K, N] contracted on its first axis, entry (p, q) of the product accumulated into the
      zero splat is the sum over k of x[p, k] · w[k, q]                                   (`matmul_plain_prec`);
    * against a right operand [N, K] contracted on its last axis (a product with the transpose, no transpose
      materialised), entry (p, q) is the sum over k of x[p, k] · w[q, k]                   (`matmul_transposed_prec`).
  Only `0 + s = s` and a re-indexing of the sum are used: nothing here needs finiteness.
-/
import Idealize.ShloMosaic.Lib.ValueIdx
import Idealize.ShloMosaic.PureOps.Ideal.Laws
import proofs.«115144_j54176717472255_1_alg».proof.Proof.LibDotRows

noncomputable section

namespace Cert.LibDotForms

open Idealize.ShloMosaic Idealize.ShloMosaic.ValueIdx

variable {M K N : Nat} {φ₁ φ₂ : FTy}

/-- Entry (p, q) of a kernel's product x · w into the zero splat, at any precision. -/
theorem matmul_plain_prec (prec : Option ContractPrecision) (x : FVec Ideal ⟨2, ![M, K]⟩ φ₁) (w : FVec Ideal ⟨2, ![K, N]⟩ φ₂)
    (p : Fin M) (q : Fin N) :
    matmul (F := Ideal) (DotDims.plain M K N) prec x w (constant ⟨2, ![M, N]⟩ .f32 0x00000000#32) (ix2 p q)
      = ∑ k : Fin K, x (ix2 p k) * w (ix2 k q) :=
  Cert.Lib.DotRows.matmul_plain_apply x w p q

/-- With the right operand contracted on its last axis, the left operand's index at (p, q) and position k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => rfl
  | ⟨1, _⟩ => exact ((DotDims.transposedRhs M K N).lhsIdx_val_of_single rfl _ _).trans hk

/-- … and the right operand's index is (q, k). -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => rfl
  | ⟨1, _⟩ => exact ((DotDims.transposedRhs M K N).rhsIdx_val_of_single rfl _ _).trans hk

/-- Entry (p, q) of a kernel's product of x with the transpose of w, into the zero splat, at any precision. -/
theorem matmul_transposed_prec (prec : Option ContractPrecision) (x : FVec Ideal ⟨2, ![M, K]⟩ φ₁) (w : FVec Ideal ⟨2, ![N, K]⟩ φ₂)
    (p : Fin M) (q : Fin N) :
    matmul (F := Ideal) (DotDims.transposedRhs M K N) prec x w (constant ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  exact Finset.sum_congr rfl fun k _ => by rw [transposed_lhsIdx, transposed_rhsIdx]

end Cert.LibDotForms

end
-- ==== Proof.Blocks0.lean ====
/-
  Region 0: what the two output arrays hold when the region is left.

  The region walks the rows of its table in 20 blocks of 5000 rows. At block t the body multiplies the block by a whole
  128 × 128 matrix and adds a bias row, twice (two matrices, two biases), and writes the two products back as block t of the
  two output arrays. Entry (p, q) of such a product reads row p of the block only, and row p of block t is row 5000·t + p of
  the table: so what point t writes back is block t of `lin` of the WHOLE table. The 20 blocks tile the 100000 rows, hence
  each output array ends holding `lin` of the whole table.
-/
import proofs.«115144_j54176717472255_1_alg».proof.Proof.Gen.KernelIdeal.Frame
import proofs.«115144_j54176717472255_1_alg».proof.Proof.LibAffineRows
import proofs.«115144_j54176717472255_1_alg».proof.Proof.LibDotForms
import Idealize.ShloMosaic.Lib.Pipeline.Value
import Idealize.ShloMosaic.Lib.ValueIdx
import Idealize.ShloMosaic.PureOps.Ideal.Laws

set_option maxRecDepth 16384

noncomputable section

namespace Cert.KernelIdeal.Blocks0

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.LibAffineRows

variable (V : (c : Dev nD) → (b : Ref sig .tc) → Buf (Elt Ideal) ((c : Thread nD τ).loc b))

/-- The corner every access of the body starts from. -/
theorem origin : (![0, 0] : Fin 2 → Nat) = fun _ => 0 := funext fun a => by fin_cases a <;> rfl

/-- The first stored value: the block's rows times the first matrix, plus the first bias row. (Rounding the operands to a
    narrower format changes nothing over the extended reals.) -/
theorem pay2_at (x0 : Vec Ideal S5000x128 .f32) (x1 : Vec Ideal S128x128 .f32) (x2 : Vec Ideal S1x128 .f32) (j : S5000x128.Idx) :
    k0_pay2 (F := Ideal) x0 x1 x2 j = lin (R := 5000) (K := 128) (C := 128) x0 x1 x2 j := by
  obtain ⟨p, q, rfl⟩ : ∃ (p : Fin 5000) (q : Fin 128), j = ix2 p q := ⟨j 0, j 1, eq_ix2 j⟩
  rw [lin_apply]
  unfold k0_pay2 k0_pay1
  refine congrArg₂ (· + ·) ?_ ?_
  · refine (Cert.LibDotForms.matmul_plain_prec (M := 5000) (K := 128) (N := 128) none _ _ p q).trans ?_
    refine Finset.sum_congr rfl fun k _ => ?_
    show x0 (ix2 p k) * (shapeCast S128x128 x1 shapeCasts_S128x128_S128x128) (ix2 k q) = _
    rw [shapeCast_self]
  · refine (broadcastTo_apply _ broadcasts_S1x128_S5000x128 (ix2 p q) (ix2 (0 : Fin 1) q) (fun a => ?_)).trans ?_
    · match a with
      | ⟨0, _⟩ => rfl
      | ⟨1, _⟩ => rfl
    · rw [shapeCast_self]

/-- The block indices, decided over the 20 points: the table and the two outputs move to block t, the matrices and the
    bias rows stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point t writes back to the first output is block t of `lin` of the whole table with the first matrix and bias. -/
theorem flushed5_eq (c : Dev nD) (t : Fin cfg0.N) :
    (dat0 V c).flushed 5 t = ((cfg0.win 5).blk t).view.read (Elt Ideal)
      (lin (R := 100000) (K := 128) (C := 128) (V c main_arg0) (V c main_v0) (V c main_v2)) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin, View.ld_unit_zero (S := S1x128) origin]
  obtain ⟨e00, e01, e10, e11, e20, e21, e30, e31, e40, e41, e50, e51, e60, e61⟩ := idx_facts t
  funext j
  show k0_pay2 (iblk0 V c 0 t) (iblk0 V c 1 t) (iblk0 V c 2 t) j = lin (R := 100000) (K := 128) (C := 128) (V c main_arg0) (V c main_v0) (V c main_v2) (((cfg0.win 5).blk t).view.emb j)
  refine (pay2_at (iblk0 V c 0 t) (iblk0 V c 1 t) (iblk0 V c 2 t) j).trans ?_
  refine congrArg₂ (· + ·) (Finset.sum_congr rfl fun k _ => congrArg₂ (· * ·) ?_ ?_) ?_
  · refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · refine congrArg (V c main_v0) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_5.index t (1 : Fin 2) * 128 + 1 * (j 1).val; omega
  · refine congrArg (V c main_v2) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_5.index t (1 : Fin 2) * 128 + 1 * (j 1).val; omega

/-- An index of the array lies in point t's block of window 5 iff each coordinate lies in the block's range. -/
theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v4_0).slice (win0_5.rect t)).set ↔ _
  rw [View.set_slice_whole, Rect.mem_set_unit]
  exact Iff.rfl

/-- Row r of the array is written back by point r / 5000: the blocks of 5000 rows tile the 100000 rows. -/
theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < cfg0.N := by have : cfg0.N = 20 := N_0; omega
  obtain ⟨e00, e01, e10, e11, e20, e21, e30, e31, e40, e41, e50, e51, e60, e61⟩ := idx_facts ⟨(i 0).val / 5000, hlt⟩
  refine ⟨⟨(i 0).val / 5000, hlt⟩, flush0_5 _, ?_⟩
  rw [mem_blk5]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e51]; omega

/-- When region 0 is left, the array of window 5 holds the affine map of the whole input array. -/
theorem final5 (c : Dev nD) : (dat0 V c).arrAt 5 cfg0.N
    = lin (R := 100000) (K := 128) (C := 128) (V c main_arg0) (V c main_v0) (V c main_v2) :=
  (dat0 V c).arrAt_eq_of_cover 5 _ (fun t _ => flushed5_eq V c t) (cover5)

/-- The second stored value: the same with the second matrix and bias row. -/
theorem pay3_at (x0 : Vec Ideal S5000x128 .f32) (x1 : Vec Ideal S128x128 .f32) (x2 : Vec Ideal S1x128 .f32) (j : S5000x128.Idx) :
    k0_pay3 (F := Ideal) x0 x1 x2 j = lin (R := 5000) (K := 128) (C := 128) x0 x1 x2 j := by
  obtain ⟨p, q, rfl⟩ : ∃ (p : Fin 5000) (q : Fin 128), j = ix2 p q := ⟨j 0, j 1, eq_ix2 j⟩
  rw [lin_apply]
  unfold k0_pay3 k0_pay1
  refine congrArg₂ (· + ·) ?_ ?_
  · refine (Cert.LibDotForms.matmul_plain_prec (M := 5000) (K := 128) (N := 128) none _ _ p q).trans ?_
    refine Finset.sum_congr rfl fun k _ => ?_
    show x0 (ix2 p k) * (shapeCast S128x128 x1 shapeCasts_S128x128_S128x128) (ix2 k q) = _
    rw [shapeCast_self]
  · refine (broadcastTo_apply _ broadcasts_S1x128_S5000x128 (ix2 p q) (ix2 (0 : Fin 1) q) (fun a => ?_)).trans ?_
    · match a with
      | ⟨0, _⟩ => rfl
      | ⟨1, _⟩ => rfl
    · rw [shapeCast_self]

/-- What point t writes back to the second output is block t of `lin` of the whole table with the second matrix and bias. -/
theorem flushed6_eq (c : Dev nD) (t : Fin cfg0.N) :
    (dat0 V c).flushed 6 t = ((cfg0.win 6).blk t).view.read (Elt Ideal)
      (lin (R := 100000) (K := 128) (C := 128) (V c main_arg0) (V c main_v1) (V c main_v3)) := by
  show (cfg0.win 6).cut (grid0.coords t) ((dat0 V c).after 6 t) = _
  rw [after0_6]
  unfold out0_6
  rw [View.canon_unit_zero origin]
  simp only [View.ld_unit_zero (S := S5000x128) origin, View.ld_unit_zero (S := S128x128) origin, View.ld_unit_zero (S := S1x128) origin]
  obtain ⟨e00, e01, e10, e11, e20, e21, e30, e31, e40, e41, e50, e51, e60, e61⟩ := idx_facts t
  funext j
  show k0_pay3 (iblk0 V c 0 t) (iblk0 V c 3 t) (iblk0 V c 4 t) j = lin (R := 100000) (K := 128) (C := 128) (V c main_arg0) (V c main_v1) (V c main_v3) (((cfg0.win 6).blk t).view.emb j)
  refine (pay3_at (iblk0 V c 0 t) (iblk0 V c 3 t) (iblk0 V c 4 t) j).trans ?_
  refine congrArg₂ (· + ·) (Finset.sum_congr rfl fun k _ => congrArg₂ (· * ·) ?_ ?_) ?_
  · refine congrArg (V c main_arg0) (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * k.val = k.val; omega
  · refine congrArg (V c main_v1) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_6.index t (1 : Fin 2) * 128 + 1 * (j 1).val; omega
  · refine congrArg (V c main_v3) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_6.index t (1 : Fin 2) * 128 + 1 * (j 1).val; omega

/-- An index of the array lies in point t's block of window 6 iff each coordinate lies in the block's range. -/
theorem mem_blk6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v4_1).slice (win0_6.rect t)).set ↔ _
  rw [View.set_slice_whole, Rect.mem_set_unit]
  exact Iff.rfl

/-- Row r of the array is written back by point r / 5000: the blocks of 5000 rows tile the 100000 rows. -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 5000 < cfg0.N := by have : cfg0.N = 20 := N_0; omega
  obtain ⟨e00, e01, e10, e11, e20, e21, e30, e31, e40, e41, e50, e51, e60, e61⟩ := idx_facts ⟨(i 0).val / 5000, hlt⟩
  refine ⟨⟨(i 0).val / 5000, hlt⟩, flush0_6 _, ?_⟩
  rw [mem_blk6]
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    rw [e60]; show (i 0).val / 5000 * 5000 ≤ (i 0).val ∧ (i 0).val < (i 0).val / 5000 * 5000 + 5000; omega
  | ⟨1, _⟩ =>
    show win0_6.index ⟨(i 0).val / 5000, hlt⟩ (1 : Fin 2) * 128 ≤ (i 1).val ∧ (i 1).val < win0_6.index ⟨(i 0).val / 5000, hlt⟩ (1 : Fin 2) * 128 + 128
    rw [e61]; omega

/-- When region 0 is left, the array of window 6 holds the affine map of the whole input array. -/
theorem final6 (c : Dev nD) : (dat0 V c).arrAt 6 cfg0.N
    = lin (R := 100000) (K := 128) (C := 128) (V c main_arg0) (V c main_v1) (V c main_v3) :=
  (dat0 V c).arrAt_eq_of_cover 6 _ (fun t _ => flushed6_eq V c t) (cover6)

end Cert.KernelIdeal.Blocks0

end
-- ==== Proof.Blocks1.lean ====
/-
  Region 1: what the two output arrays hold when the region is left.

  The region walks the rows of its table in 25 blocks of 2000 rows. At block t the body multiplies the block by a whole
  128 × 128 matrix and adds a bias row, twice (two matrices, two biases), and writes the two products back as block t of the
  two output arrays. Entry (p, q) of such a product reads row p of the block only, and row p of block t is row 2000·t + p of
  the table: so what point t writes back is block t of `lin` of the WHOLE table. The 25 blocks tile the 50000 rows, hence
  each output array ends holding `lin` of the whole table.
-/
import proofs.«115144_j54176717472255_1_alg».proof.Proof.Gen.KernelIdeal.Frame
import proofs.«115144_j54176717472255_1_alg».proof.Proof.LibAffineRows
import proofs.«115144_j54176717472255_1_alg».proof.Proof.LibDotForms
import Idealize.ShloMosaic.Lib.Pipeline.Value
import Idealize.ShloMosaic.Lib.ValueIdx
import Idealize.ShloMosaic.PureOps.Ideal.Laws

set_option maxRecDepth 16384

noncomputable section

namespace Cert.KernelIdeal.Blocks1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.LibAffineRows

variable (V : (c : Dev nD) → (b : Ref sig .tc) → Buf (Elt Ideal) ((c : Thread nD τ).loc b))

/-- The corner every access of the body starts from. -/
theorem origin : (![0, 0] : Fin 2 → Nat) = fun _ => 0 := funext fun a => by fin_cases a <;> rfl

/-- The first stored value: the block's rows times the first matrix, plus the first bias row. (Rounding the operands to a
    narrower format changes nothing over the extended reals.) -/
theorem pay2_at (x0 : Vec Ideal S2000x128 .f32) (x1 : Vec Ideal S128x128 .f32) (x2 : Vec Ideal S1x128 .f32) (j : S2000x128.Idx) :
    k1_pay2 (F := Ideal) x0 x1 x2 j = lin (R := 2000) (K := 128) (C := 128) x0 x1 x2 j := by
  obtain ⟨p, q, rfl⟩ : ∃ (p : Fin 2000) (q : Fin 128), j = ix2 p q := ⟨j 0, j 1, eq_ix2 j⟩
  rw [lin_apply]
  unfold k1_pay2 k1_pay1
  refine congrArg₂ (· + ·) ?_ ?_
  · refine (Cert.LibDotForms.matmul_plain_prec (M := 2000) (K := 128) (N := 128) none _ _ p q).trans ?_
    refine Finset.sum_congr rfl fun k _ => ?_
    show x0 (ix2 p k) * (shapeCast S128x128 x1 shapeCasts_S128x128_S128x128) (ix2 k q) = _
    rw [shapeCast_self]
  · refine (broadcastTo_apply _ broadcasts_S1x128_S2000x128 (ix2 p q) (ix2 (0 : Fin 1) q) (fun a => ?_)).trans ?_
    · match a with
      | ⟨0, _⟩ => rfl
      | ⟨1, _⟩ => rfl
    · rw [shapeCast_self]

/-- The block indices, decided over the 25 points: the table and the two outputs move to block t, the matrices and the
    bias rows stay at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- What point t writes back to the first output is block t of `lin` of the whole table with the first matrix and bias. -/
theorem flushed5_eq (c : Dev nD) (t : Fin cfg1.N) :
    (dat1 V c).flushed 5 t = ((cfg1.win 5).blk t).view.read (Elt Ideal)
      (lin (R := 50000) (K := 128) (C := 128) (V c main_arg1) (V c main_v5) (V c main_v7)) := by
  show (cfg1.win 5).cut (grid1.coords t) ((dat1 V c).after 5 t) = _
  rw [after1_5]
  unfold out1_5
  rw [View.canon_unit_zero origin]
  simp only [View.ld_unit_zero (S := S2000x128) origin, View.ld_unit_zero (S := S128x128) origin, View.ld_unit_zero (S := S1x128) origin]
  obtain ⟨e00, e01, e10, e11, e20, e21, e30, e31, e40, e41, e50, e51, e60, e61⟩ := idx_facts t
  funext j
  show k1_pay2 (iblk1 V c 0 t) (iblk1 V c 1 t) (iblk1 V c 2 t) j = lin (R := 50000) (K := 128) (C := 128) (V c main_arg1) (V c main_v5) (V c main_v7) (((cfg1.win 5).blk t).view.emb j)
  refine (pay2_at (iblk1 V c 0 t) (iblk1 V c 1 t) (iblk1 V c 2 t) j).trans ?_
  refine congrArg₂ (· + ·) (Finset.sum_congr rfl fun k _ => congrArg₂ (· * ·) ?_ ?_) ?_
  · refine congrArg (V c main_arg1) (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * k.val = k.val; omega
  · refine congrArg (V c main_v5) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_5.index t (1 : Fin 2) * 128 + 1 * (j 1).val; omega
  · refine congrArg (V c main_v7) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_5.index t (1 : Fin 2) * 128 + 1 * (j 1).val; omega

/-- An index of the array lies in point t's block of window 5 iff each coordinate lies in the block's range. -/
theorem mem_blk5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v9_0).slice (win1_5.rect t)).set ↔ _
  rw [View.set_slice_whole, Rect.mem_set_unit]
  exact Iff.rfl

/-- Row r of the array is written back by point r / 2000: the blocks of 2000 rows tile the 50000 rows. -/
theorem cover5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 2000 < cfg1.N := by have : cfg1.N = 25 := N_1; omega
  obtain ⟨e00, e01, e10, e11, e20, e21, e30, e31, e40, e41, e50, e51, e60, e61⟩ := idx_facts ⟨(i 0).val / 2000, hlt⟩
  refine ⟨⟨(i 0).val / 2000, hlt⟩, flush1_5 _, ?_⟩
  rw [mem_blk5]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    rw [e51]; omega

/-- When region 1 is left, the array of window 5 holds the affine map of the whole input array. -/
theorem final5 (c : Dev nD) : (dat1 V c).arrAt 5 cfg1.N
    = lin (R := 50000) (K := 128) (C := 128) (V c main_arg1) (V c main_v5) (V c main_v7) :=
  (dat1 V c).arrAt_eq_of_cover 5 _ (fun t _ => flushed5_eq V c t) (cover5)

/-- The second stored value: the same with the second matrix and bias row. -/
theorem pay3_at (x0 : Vec Ideal S2000x128 .f32) (x1 : Vec Ideal S128x128 .f32) (x2 : Vec Ideal S1x128 .f32) (j : S2000x128.Idx) :
    k1_pay3 (F := Ideal) x0 x1 x2 j = lin (R := 2000) (K := 128) (C := 128) x0 x1 x2 j := by
  obtain ⟨p, q, rfl⟩ : ∃ (p : Fin 2000) (q : Fin 128), j = ix2 p q := ⟨j 0, j 1, eq_ix2 j⟩
  rw [lin_apply]
  unfold k1_pay3 k1_pay1
  refine congrArg₂ (· + ·) ?_ ?_
  · refine (Cert.LibDotForms.matmul_plain_prec (M := 2000) (K := 128) (N := 128) none _ _ p q).trans ?_
    refine Finset.sum_congr rfl fun k _ => ?_
    show x0 (ix2 p k) * (shapeCast S128x128 x1 shapeCasts_S128x128_S128x128) (ix2 k q) = _
    rw [shapeCast_self]
  · refine (broadcastTo_apply _ broadcasts_S1x128_S2000x128 (ix2 p q) (ix2 (0 : Fin 1) q) (fun a => ?_)).trans ?_
    · match a with
      | ⟨0, _⟩ => rfl
      | ⟨1, _⟩ => rfl
    · rw [shapeCast_self]

/-- What point t writes back to the second output is block t of `lin` of the whole table with the second matrix and bias. -/
theorem flushed6_eq (c : Dev nD) (t : Fin cfg1.N) :
    (dat1 V c).flushed 6 t = ((cfg1.win 6).blk t).view.read (Elt Ideal)
      (lin (R := 50000) (K := 128) (C := 128) (V c main_arg1) (V c main_v6) (V c main_v8)) := by
  show (cfg1.win 6).cut (grid1.coords t) ((dat1 V c).after 6 t) = _
  rw [after1_6]
  unfold out1_6
  rw [View.canon_unit_zero origin]
  simp only [View.ld_unit_zero (S := S2000x128) origin, View.ld_unit_zero (S := S128x128) origin, View.ld_unit_zero (S := S1x128) origin]
  obtain ⟨e00, e01, e10, e11, e20, e21, e30, e31, e40, e41, e50, e51, e60, e61⟩ := idx_facts t
  funext j
  show k1_pay3 (iblk1 V c 0 t) (iblk1 V c 3 t) (iblk1 V c 4 t) j = lin (R := 50000) (K := 128) (C := 128) (V c main_arg1) (V c main_v6) (V c main_v8) (((cfg1.win 6).blk t).view.emb j)
  refine (pay3_at (iblk1 V c 0 t) (iblk1 V c 3 t) (iblk1 V c 4 t) j).trans ?_
  refine congrArg₂ (· + ·) (Finset.sum_congr rfl fun k _ => congrArg₂ (· * ·) ?_ ?_) ?_
  · refine congrArg (V c main_arg1) (funext fun a => Fin.ext ?_)
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 128 + 1 * k.val = k.val; omega
  · refine congrArg (V c main_v6) (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_6.index t (1 : Fin 2) * 128 + 1 * (j 1).val; omega
  · refine congrArg (V c main_v8) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_6.index t (1 : Fin 2) * 128 + 1 * (j 1).val; omega

/-- An index of the array lies in point t's block of window 6 iff each coordinate lies in the block's range. -/
theorem mem_blk6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v9_1).slice (win1_6.rect t)).set ↔ _
  rw [View.set_slice_whole, Rect.mem_set_unit]
  exact Iff.rfl

/-- Row r of the array is written back by point r / 2000: the blocks of 2000 rows tile the 50000 rows. -/
theorem cover6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hlt : (i 0).val / 2000 < cfg1.N := by have : cfg1.N = 25 := N_1; omega
  obtain ⟨e00, e01, e10, e11, e20, e21, e30, e31, e40, e41, e50, e51, e60, e61⟩ := idx_facts ⟨(i 0).val / 2000, hlt⟩
  refine ⟨⟨(i 0).val / 2000, hlt⟩, flush1_6 _, ?_⟩
  rw [mem_blk6]
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win1_6.index ⟨(i 0).val / 2000, hlt⟩ (1 : Fin 2) * 128 ≤ (i 1).val ∧ (i 1).val < win1_6.index ⟨(i 0).val / 2000, hlt⟩ (1 : Fin 2) * 128 + 128
    rw [e61]; omega

/-- When region 1 is left, the array of window 6 holds the affine map of the whole input array. -/
theorem final6 (c : Dev nD) : (dat1 V c).arrAt 6 cfg1.N
    = lin (R := 50000) (K := 128) (C := 128) (V c main_arg1) (V c main_v6) (V c main_v8) :=
  (dat1 V c).arrAt_eq_of_cover 6 _ (fun t _ => flushed6_eq V c t) (cover6)

end Cert.KernelIdeal.Blocks1

end
-- ==== Proof.Fold.lean ====
/-
  The fold through the stretches, read where the value needs it: what each region finds in its input arrays, and what the
  last stretch of host operations finds in the regions' output arrays and in the edge list.
-/
import proofs.«115144_j54176717472255_1_alg».proof.Proof.Gen.KernelIdeal.Frame
import Idealize.ShloMosaic.Lib.StableHlo.Run
import Idealize.ShloMosaic.PureOps.Ideal

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

/-- No operation of a stretch writes the buffer: each operation's written buffer is another one. -/
macro "not_written" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg)

/-! ## What region 0 finds -/

theorem V1_arg0 (c : Dev nD) : V1 m ρ c main_arg0 = m ((c : Thread nD τ).loc main_arg0) :=
  StableHlo.after_of_forall_not_mem (b := Proc.devRef .tc main_arg0) _ _ (by not_written hostOps0)

theorem V1_v0 (c : Dev nD) : V1 m ρ c main_v0
    = transpose S128x128 [1, 0] (m ((c : Thread nD τ).loc main_arg3)) transposes_S128x128_S128x128_1_0 := by
  show StableHlo.after hostOps0 (W0 m ρ c) (Proc.devRef .tc main_v0) = _
  after_results

theorem V1_v1 (c : Dev nD) : V1 m ρ c main_v1
    = transpose S128x128 [1, 0] (m ((c : Thread nD τ).loc main_arg7)) transposes_S128x128_S128x128_1_0 := by
  show StableHlo.after hostOps0 (W0 m ρ c) (Proc.devRef .tc main_v1) = _
  after_results

theorem V1_v2 (c : Dev nD) : V1 m ρ c main_v2
    = shapeCast S1x128 (m ((c : Thread nD τ).loc main_arg4)) shapeCasts_S128_S1x128 := by
  show StableHlo.after hostOps0 (W0 m ρ c) (Proc.devRef .tc main_v2) = _
  after_results
  rfl

theorem V1_v3 (c : Dev nD) : V1 m ρ c main_v3
    = shapeCast S1x128 (m ((c : Thread nD τ).loc main_arg8)) shapeCasts_S128_S1x128 := by
  show StableHlo.after hostOps0 (W0 m ρ c) (Proc.devRef .tc main_v3) = _
  after_results
  rfl

/-! ## An argument that region 0 does not stage, after region 0 -/

theorem W2_arg1 (c : Dev nD) : W2 m ρ c (Proc.devRef .tc main_arg1) = m ((c : Thread nD τ).loc main_arg1) :=
  (W2_of_ne m ρ c main_arg1 (by decide)).trans
    (StableHlo.after_of_forall_not_mem (b := Proc.devRef .tc main_arg1) _ _ (by not_written hostOps0))
theorem W2_arg2 (c : Dev nD) : W2 m ρ c (Proc.devRef .tc main_arg2) = m ((c : Thread nD τ).loc main_arg2) :=
  (W2_of_ne m ρ c main_arg2 (by decide)).trans
    (StableHlo.after_of_forall_not_mem (b := Proc.devRef .tc main_arg2) _ _ (by not_written hostOps0))
theorem W2_arg5 (c : Dev nD) : W2 m ρ c (Proc.devRef .tc main_arg5) = m ((c : Thread nD τ).loc main_arg5) :=
  (W2_of_ne m ρ c main_arg5 (by decide)).trans
    (StableHlo.after_of_forall_not_mem (b := Proc.devRef .tc main_arg5) _ _ (by not_written hostOps0))
theorem W2_arg6 (c : Dev nD) : W2 m ρ c (Proc.devRef .tc main_arg6) = m ((c : Thread nD τ).loc main_arg6) :=
  (W2_of_ne m ρ c main_arg6 (by decide)).trans
    (StableHlo.after_of_forall_not_mem (b := Proc.devRef .tc main_arg6) _ _ (by not_written hostOps0))
theorem W2_arg9 (c : Dev nD) : W2 m ρ c (Proc.devRef .tc main_arg9) = m ((c : Thread nD τ).loc main_arg9) :=
  (W2_of_ne m ρ c main_arg9 (by decide)).trans
    (StableHlo.after_of_forall_not_mem (b := Proc.devRef .tc main_arg9) _ _ (by not_written hostOps0))
theorem W2_arg10 (c : Dev nD) : W2 m ρ c (Proc.devRef .tc main_arg10) = m ((c : Thread nD τ).loc main_arg10) :=
  (W2_of_ne m ρ c main_arg10 (by decide)).trans
    (StableHlo.after_of_forall_not_mem (b := Proc.devRef .tc main_arg10) _ _ (by not_written hostOps0))

/-! ## What region 1 finds -/

theorem V3_arg1 (c : Dev nD) : V3 m ρ c main_arg1 = m ((c : Thread nD τ).loc main_arg1) :=
  (StableHlo.after_of_forall_not_mem (b := Proc.devRef .tc main_arg1) _ _ (by not_written hostOps1)).trans (W2_arg1 m ρ c)

theorem V3_v5 (c : Dev nD) : V3 m ρ c main_v5
    = transpose S128x128 [1, 0] (m ((c : Thread nD τ).loc main_arg5)) transposes_S128x128_S128x128_1_0 := by
  show StableHlo.after hostOps1 (W2 m ρ c) (Proc.devRef .tc main_v5) = _
  after_results
  rw [W2_arg5]

theorem V3_v6 (c : Dev nD) : V3 m ρ c main_v6
    = transpose S128x128 [1, 0] (m ((c : Thread nD τ).loc main_arg9)) transposes_S128x128_S128x128_1_0 := by
  show StableHlo.after hostOps1 (W2 m ρ c) (Proc.devRef .tc main_v6) = _
  after_results
  rw [W2_arg9]

theorem V3_v7 (c : Dev nD) : V3 m ρ c main_v7
    = shapeCast S1x128 (m ((c : Thread nD τ).loc main_arg6)) shapeCasts_S128_S1x128 := by
  show StableHlo.after hostOps1 (W2 m ρ c) (Proc.devRef .tc main_v7) = _
  after_results
  rw [W2_arg6]
  rfl

theorem V3_v8 (c : Dev nD) : V3 m ρ c main_v8
    = shapeCast S1x128 (m ((c : Thread nD τ).loc main_arg10)) shapeCasts_S128_S1x128 := by
  show StableHlo.after hostOps1 (W2 m ρ c) (Proc.devRef .tc main_v8) = _
  after_results
  rw [W2_arg10]
  rfl

/-! ## What the last stretch finds -/

theorem W4_v9_0 (c : Dev nD) : W4 m ρ c (Proc.devRef .tc main_v9_0) = (dat1 (V3 m ρ) c).arrAt 5 cfg1.N := W4_arr m ρ c 5
theorem W4_v9_1 (c : Dev nD) : W4 m ρ c (Proc.devRef .tc main_v9_1) = (dat1 (V3 m ρ) c).arrAt 6 cfg1.N := W4_arr m ρ c 6

theorem W4_v4_0 (c : Dev nD) : W4 m ρ c (Proc.devRef .tc main_v4_0) = (dat0 (V1 m ρ) c).arrAt 5 cfg0.N :=
  (W4_of_ne m ρ c main_v4_0 (by decide)).trans
    ((StableHlo.after_of_forall_not_mem (b := Proc.devRef .tc main_v4_0) _ _ (by not_written hostOps1)).trans (W2_arr m ρ c 5))
theorem W4_v4_1 (c : Dev nD) : W4 m ρ c (Proc.devRef .tc main_v4_1) = (dat0 (V1 m ρ) c).arrAt 6 cfg0.N :=
  (W4_of_ne m ρ c main_v4_1 (by decide)).trans
    ((StableHlo.after_of_forall_not_mem (b := Proc.devRef .tc main_v4_1) _ _ (by not_written hostOps1)).trans (W2_arr m ρ c 6))

theorem W4_arg2 (c : Dev nD) : W4 m ρ c (Proc.devRef .tc main_arg2) = m ((c : Thread nD τ).loc main_arg2) :=
  (W4_of_ne m ρ c main_arg2 (by decide)).trans
    ((StableHlo.after_of_forall_not_mem (b := Proc.devRef .tc main_arg2) _ _ (by not_written hostOps1)).trans (W2_arg2 m ρ c))

end Cert.KernelIdeal.Fold

end
-- ==== Proof.Tail.lean ====
/-
  The host operations after the two regions: edges gather a row of one side's messages and the rows are summed by the
  other endpoint, then added to the self term.
-/
import proofs.«115144_j54176717472255_1_alg».proof.Proof.Gen.KernelIdeal.Frame
import Idealize.ShloMosaic.Lib.StableHlo.Run
import Idealize.ShloMosaic.PureOps.Ideal

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

abbrev Edges : Type := (⟨S2x600000, .i32⟩ : BufTy).Contents (Elt Ideal)
abbrev EdgeVec : Type := (⟨S600000, .i32⟩ : BufTy).Contents (Elt Ideal)
abbrev EdgeCol : Type := (⟨S600000x1, .i32⟩ : BufTy).Contents (Elt Ideal)
abbrev Users : Type := (⟨S100000x128, .f32⟩ : BufTy).Contents (Elt Ideal)
abbrev Items : Type := (⟨S50000x128, .f32⟩ : BufTy).Contents (Elt Ideal)

/-- The user end of every edge: row 0 of the edge list. -/
def userEnd (x2 : Edges) : EdgeVec :=
  shapeCast S600000 (extractStridedSlice S1x600000 ![0, 0] x2 slices_S2x600000_S1x600000_0_0) shapeCasts_S1x600000_S600000
/-- The item end of every edge: row 1 of the edge list. -/
def itemEnd (x2 : Edges) : EdgeVec :=
  shapeCast S600000 (extractStridedSlice S1x600000 ![1, 0] x2 slices_S2x600000_S1x600000_1_0) shapeCasts_S1x600000_S600000
/-- Negative indices count from the end of an axis of length n. -/
def wrap (n : BitVec 32) (v : EdgeVec) : EdgeVec :=
  select (cmpi .slt v (broadcastInDim S600000 ![] bcast_S_S600000 (constantI S_ 32 0#32)))
    (addi v (broadcastInDim S600000 ![] bcast_S_S600000 (constantI S_ 32 n))) v
/-- An index vector as a column. -/
def col (v : EdgeVec) : EdgeCol := broadcastInDim S600000x1 ![0] bcast_S600000_S600000x1_0 v

/-- A user's result: its own embedding plus the sum, over the edges ending at it, of the item message at the edge's item. -/
def users (own : Users) (msg : Items) (x2 : Edges) : Users :=
  addf (F := Ideal) own (Host.scatterAdd (F := Ideal) scatter_S100000x128_S600000x1_S600000x128_1_0_0_1
    (broadcastInDim S100000x128 ![] bcast_S_S100000x128 (constant (F := Ideal) S_ .f32 0x00000000#32)) (col (userEnd x2))
    (Host.gather gather_S50000x128_S600000x1_S600000x128_1_0_n_n_0_1_1128 msg (col (wrap 50000#32 (itemEnd x2)))))

/-- An item's result: its own embedding plus the sum, over the edges ending at it, of the user message at the edge's user. -/
def items (own : Items) (msg : Users) (x2 : Edges) : Items :=
  addf (F := Ideal) own (Host.scatterAdd (F := Ideal) scatter_S50000x128_S600000x1_S600000x128_1_0_0_1
    (broadcastInDim S50000x128 ![] bcast_S_S50000x128 (constant (F := Ideal) S_ .f32 0x00000000#32)) (col (itemEnd x2))
    (Host.gather gather_S100000x128_S600000x1_S600000x128_1_0_n_n_0_1_1128 msg (col (wrap 100000#32 (userEnd x2)))))

variable (m : (ℓ : Loc nD τ sig) → Buf (Elt Ideal) ℓ) (ρ : Dev nD → PrngReg)

theorem W5_users (c : Dev nD) : W5 m ρ c (Proc.devRef .tc main_v34)
    = users (W4 m ρ c (Proc.devRef .tc main_v4_0)) (W4 m ρ c (Proc.devRef .tc main_v9_1)) (W4 m ρ c (Proc.devRef .tc main_arg2)) := by
  show StableHlo.after hostOps2 (W4 m ρ c) (Proc.devRef .tc main_v34) = _
  after_results_simp <;> rfl

theorem W5_items (c : Dev nD) : W5 m ρ c (Proc.devRef .tc main_v35)
    = items (W4 m ρ c (Proc.devRef .tc main_v9_0)) (W4 m ρ c (Proc.devRef .tc main_v4_1)) (W4 m ρ c (Proc.devRef .tc main_arg2)) := by
  show StableHlo.after hostOps2 (W4 m ρ c) (Proc.devRef .tc main_v35) = _
  after_results_simp <;> rfl

end Cert.KernelIdeal.Tail

end
-- ==== Proof.KernelValue.lean ====
/-
  The idealized kernel's two results as functions of its arguments.

  With lin x w b [r, c] = Σ_k x[r, k] · w[k, c] + b[0, c]:
    users = lin U W_userᵀ b_user + Σ over edges (u, i) ending at the user of (lin I W_i2uᵀ b_i2u)[i, ·]
    items = lin I W_itemᵀ b_item + Σ over edges (u, i) ending at the item of (lin U W_u2iᵀ b_u2i)[u, ·]
  where U, I are the two feature tables. Each region's output arrays hold lin of the whole table because its blocks of rows
  tile the table and a block of rows of lin depends on the same block of rows of the table only.
-/
import proofs.«115144_j54176717472255_1_alg».proof.Proof.KernelRun
import proofs.«115144_j54176717472255_1_alg».proof.Proof.Blocks0
import proofs.«115144_j54176717472255_1_alg».proof.Proof.Blocks1
import proofs.«115144_j54176717472255_1_alg».proof.Proof.Fold
import proofs.«115144_j54176717472255_1_alg».proof.Proof.Tail

set_option maxRecDepth 16384

noncomputable section

namespace Cert.KernelIdeal.Result

open Idealize.ShloMosaic Idealize.ShloMosaic.TcCoe Idealize.SL.Sem
open Cert.KernelIdeal Cert.KernelIdeal.Gen Cert.LibAffineRows

abbrev Mat : Type := FVec Ideal S128x128 .f32
abbrev Bias : Type := FVec Ideal S128 .f32

/-- One table through one linear layer: the weight is given as [out, in], so the rows meet its transpose. -/
def layer {R : Nat} (x : FVec Ideal ⟨2, ![R, 128]⟩ .f32) (w : Mat) (b : Bias) : FVec Ideal ⟨2, ![R, 128]⟩ .f32 :=
  lin (R := R) (K := 128) (C := 128) x (transpose S128x128 [1, 0] w transposes_S128x128_S128x128_1_0)
    (shapeCast S1x128 b shapeCasts_S128_S1x128)

def usersOf (x0 : Tail.Users) (x1 : Tail.Items) (x2 : Tail.Edges) (x3 : Mat) (x4 : Bias) (x9 : Mat) (x10 : Bias) : Tail.Users :=
  Tail.users (layer (R := 100000) x0 x3 x4) (layer (R := 50000) x1 x9 x10) x2

def itemsOf (x0 : Tail.Users) (x1 : Tail.Items) (x2 : Tail.Edges) (x5 : Mat) (x6 : Bias) (x7 : Mat) (x8 : Bias) : Tail.Items :=
  Tail.items (layer (R := 50000) x1 x5 x6) (layer (R := 100000) x0 x7 x8) x2

variable (m : (ℓ : Loc nD τ sig) → Buf (Elt Ideal) ℓ) (ρ : Dev nD → PrngReg)

theorem W5_v34 (c : Dev nD) : W5 m ρ c (Proc.devRef .tc main_v34)
    = usersOf (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg9)) (m ((c : Thread nD τ).loc main_arg10)) := by
  rw [Tail.W5_users, Fold.W4_v4_0, Fold.W4_v9_1, Fold.W4_arg2, Blocks0.final5, Blocks1.final6,
    Fold.V1_arg0, Fold.V1_v0, Fold.V1_v2, Fold.V3_arg1, Fold.V3_v6, Fold.V3_v8]
  rfl

theorem W5_v35 (c : Dev nD) : W5 m ρ c (Proc.devRef .tc main_v35)
    = itemsOf (m ((c : Thread nD τ).loc main_arg0)) (m ((c : Thread nD τ).loc main_arg1)) (m ((c : Thread nD τ).loc main_arg2))
        (m ((c : Thread nD τ).loc main_arg5)) (m ((c : Thread nD τ).loc main_arg6))
        (m ((c : Thread nD τ).loc main_arg7)) (m ((c : Thread nD τ).loc main_arg8)) := by
  rw [Tail.W5_items, Fold.W4_v9_0, Fold.W4_v4_1, Fold.W4_arg2, Blocks1.final5, Blocks0.final6,
    Fold.V1_arg0, Fold.V1_v1, Fold.V1_v3, Fold.V3_arg1, Fold.V3_v5, Fold.V3_v7]
  rfl

/-- The run: every weakly fair execution terminates without a fault with the two results at `usersOf` and `itemsOf` of the
    arguments, and the arguments as launched. -/
theorem run : θ_run defs (onTc (τ := τ) (main (F := Ideal))) ⟨m, fun _ => 0, ρ⟩ (fun r => ∀ c : Dev nD,
      r.2.mem ((c.tc : Thread nD τ).loc main_v34)
        = usersOf (m ((c : Thread nD τ).loc main_arg0)) (m ((c : Thread nD τ).loc main_arg1)) (m ((c : Thread nD τ).loc main_arg2))
            (m ((c : Thread nD τ).loc main_arg3)) (m ((c : Thread nD τ).loc main_arg4))
            (m ((c : Thread nD τ).loc main_arg9)) (m ((c : Thread nD τ).loc main_arg10))
      ∧ r.2.mem ((c.tc : Thread nD τ).loc main_v35)
        = itemsOf (m ((c : Thread nD τ).loc main_arg0)) (m ((c : Thread nD τ).loc main_arg1)) (m ((c : Thread nD τ).loc main_arg2))
            (m ((c : Thread nD τ).loc main_arg5)) (m ((c : Thread nD τ).loc main_arg6))
            (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(Whole.at_end m ρ r h c main_v34 (by decide)).trans (W5_v34 m ρ c),
     (Whole.at_end m ρ r h c main_v35 (by decide)).trans (W5_v35 m ρ c),
     (Whole.at_end m ρ r h c main_arg0 (by decide)).trans (W5_main_arg0 m ρ c),
     (Whole.at_end m ρ r h c main_arg1 (by decide)).trans (W5_main_arg1 m ρ c),
     (Whole.at_end m ρ r h c main_arg2 (by decide)).trans (W5_main_arg2 m ρ c),
     (Whole.at_end m ρ r h c main_arg3 (by decide)).trans (W5_main_arg3 m ρ c),
     (Whole.at_end m ρ r h c main_arg4 (by decide)).trans (W5_main_arg4 m ρ c),
     (Whole.at_end m ρ r h c main_arg5 (by decide)).trans (W5_main_arg5 m ρ c),
     (Whole.at_end m ρ r h c main_arg6 (by decide)).trans (W5_main_arg6 m ρ c),
     (Whole.at_end m ρ r h c main_arg7 (by decide)).trans (W5_main_arg7 m ρ c),
     (Whole.at_end m ρ r h c main_arg8 (by decide)).trans (W5_main_arg8 m ρ c),
     (Whole.at_end m ρ r h c main_arg9 (by decide)).trans (W5_main_arg9 m ρ c),
     (Whole.at_end m ρ r h c main_arg10 (by decide)).trans (W5_main_arg10 m ρ c)⟩)
    (Whole.run_all m ρ)

end Cert.KernelIdeal.Result

end
-- ==== Proof.RefValue.lean ====
/-
  The reference computes the same two functions.

  The reference gathers the rows of a feature table along the edges and THEN applies the message layer to the gathered
  rows; the kernel applies the layer to the whole table and then gathers rows of the result. A layer maps row r of its input
  to row r of its output, so the two orders give the same rows. Everything else — the self layers, the index columns, the
  sum by segment, the final addition — is the same operation on both sides.
-/
import proofs.«115144_j54176717472255_1_alg».proof.Proof.KernelValue
import proofs.«115144_j54176717472255_1_alg».proof.Proof.Gen.ReferenceIdeal.Read
import proofs.«115144_j54176717472255_1_alg».proof.Proof.LibAffineRows

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Read Cert.LibAffineRows

abbrev Users : Type := (⟨S100000x128, .f32⟩ : BufTy).Contents (Elt Ideal)
abbrev Items : Type := (⟨S50000x128, .f32⟩ : BufTy).Contents (Elt Ideal)
abbrev Edges : Type := (⟨S2x600000, .i32⟩ : BufTy).Contents (Elt Ideal)
abbrev Mat : Type := (⟨S128x128, .f32⟩ : BufTy).Contents (Elt Ideal)
abbrev Bias : Type := (⟨S128, .f32⟩ : BufTy).Contents (Elt Ideal)

/-- The users' self layer. -/
theorem self_users (x0 : Users) (x3 : Mat) (x4 : Bias) :
    val_main_v8 (F := Ideal) x0 x3 x4 = Cert.KernelIdeal.Result.layer (R := 100000) x0 x3 x4 := by
  show addf (F := Ideal) (Host.dotGeneral (F := Ideal) dot_S100000x128_S128x128_S100000x128_1_0_0_1_n_n none x0
      (transpose S128x128 [1, 0] x3 transposes_S128x128_S128x128_1_0))
    (broadcastInDim S100000x128 ![0, 1] bcast_S1x128_S100000x128_0_1 (broadcastInDim S1x128 ![1] bcast_S128_S1x128_1 x4)) = _
  rw [bias_row (C := 128) bcast_S128_S1x128_1 Cert.KernelIdeal.Gen.shapeCasts_S128_S1x128 x4]
  exact host_affine (R := 100000) (K := 128) (C := 128) _ rfl _ x0 _ _

/-- The items' self layer. -/
theorem self_items (x1 : Items) (x5 : Mat) (x6 : Bias) :
    val_main_v13 (F := Ideal) x1 x5 x6 = Cert.KernelIdeal.Result.layer (R := 50000) x1 x5 x6 := by
  show addf (F := Ideal) (Host.dotGeneral (F := Ideal) dot_S50000x128_S128x128_S50000x128_1_0_0_1_n_n none x1
      (transpose S128x128 [1, 0] x5 transposes_S128x128_S128x128_1_0))
    (broadcastInDim S50000x128 ![0, 1] bcast_S1x128_S50000x128_0_1 (broadcastInDim S1x128 ![1] bcast_S128_S1x128_1 x6)) = _
  rw [bias_row (C := 128) bcast_S128_S1x128_1 Cert.KernelIdeal.Gen.shapeCasts_S128_S1x128 x6]
  exact host_affine (R := 50000) (K := 128) (C := 128) _ rfl _ x1 _ _

/-- The messages users send: the layer of the gathered user rows is the gathered rows of the users' layer. -/
theorem msgs_from_users (x0 : Users) (x2 : Edges) (x7 : Mat) (x8 : Bias) :
    val_main_v25 (F := Ideal) x0 x2 x7 x8
      = Host.gather Cert.KernelIdeal.gather_S100000x128_S600000x1_S600000x128_1_0_n_n_0_1_1128 (Cert.KernelIdeal.Result.layer (R := 100000) x0 x7 x8)
          (Cert.KernelIdeal.Tail.col (Cert.KernelIdeal.Tail.wrap 100000#32 (Cert.KernelIdeal.Tail.userEnd x2))) := by
  show addf (F := Ideal) (Host.dotGeneral (F := Ideal) dot_S600000x128_S128x128_S600000x128_1_0_0_1_n_n none
      (Host.gather gather_S100000x128_S600000x1_S600000x128_1_0_n_n_0_1_1128 x0 (val_main_v19 (F := Ideal) x2))
      (transpose S128x128 [1, 0] x7 transposes_S128x128_S128x128_1_0))
    (broadcastInDim S600000x128 ![0, 1] bcast_S1x128_S600000x128_0_1 (broadcastInDim S1x128 ![1] bcast_S128_S1x128_1 x8)) = _
  rw [bias_row (C := 128) bcast_S128_S1x128_1 Cert.KernelIdeal.Gen.shapeCasts_S128_S1x128 x8,
    host_affine (R := 600000) (K := 128) (C := 128) dot_S600000x128_S128x128_S600000x128_1_0_0_1_n_n rfl bcast_S1x128_S600000x128_0_1]
  exact gather_affine (R := 100000) (K := 128) (C := 128) (E := 600000) (by decide)
    gather_S100000x128_S600000x1_S600000x128_1_0_n_n_0_1_1128 rfl rfl rfl rfl rfl rfl rfl
    Cert.KernelIdeal.gather_S100000x128_S600000x1_S600000x128_1_0_n_n_0_1_1128 rfl rfl rfl rfl rfl rfl rfl x0 _ _ _

/-- The messages items send. -/
theorem msgs_from_items (x1 : Items) (x2 : Edges) (x9 : Mat) (x10 : Bias) :
    val_main_v40 (F := Ideal) x1 x2 x9 x10
      = Host.gather Cert.KernelIdeal.gather_S50000x128_S600000x1_S600000x128_1_0_n_n_0_1_1128 (Cert.KernelIdeal.Result.layer (R := 50000) x1 x9 x10)
          (Cert.KernelIdeal.Tail.col (Cert.KernelIdeal.Tail.wrap 50000#32 (Cert.KernelIdeal.Tail.itemEnd x2))) := by
  show addf (F := Ideal) (Host.dotGeneral (F := Ideal) dot_S600000x128_S128x128_S600000x128_1_0_0_1_n_n none
      (Host.gather gather_S50000x128_S600000x1_S600000x128_1_0_n_n_0_1_1128 x1 (val_main_v34 (F := Ideal) x2))
      (transpose S128x128 [1, 0] x9 transposes_S128x128_S128x128_1_0))
    (broadcastInDim S600000x128 ![0, 1] bcast_S1x128_S600000x128_0_1 (broadcastInDim S1x128 ![1] bcast_S128_S1x128_1 x10)) = _
  rw [bias_row (C := 128) bcast_S128_S1x128_1 Cert.KernelIdeal.Gen.shapeCasts_S128_S1x128 x10,
    host_affine (R := 600000) (K := 128) (C := 128) dot_S600000x128_S128x128_S600000x128_1_0_0_1_n_n rfl bcast_S1x128_S600000x128_0_1]
  exact gather_affine (R := 50000) (K := 128) (C := 128) (E := 600000) (by decide)
    gather_S50000x128_S600000x1_S600000x128_1_0_n_n_0_1_1128 rfl rfl rfl rfl rfl rfl rfl
    Cert.KernelIdeal.gather_S50000x128_S600000x1_S600000x128_1_0_n_n_0_1_1128 rfl rfl rfl rfl rfl rfl rfl x1 _ _ _

/-- The reference's first result is the kernel's function of the arguments. -/
theorem users_eq (x0 : Users) (x1 : Items) (x2 : Edges) (x3 : Mat) (x4 : Bias) (x9 : Mat) (x10 : Bias) :
    val_main_v44 (F := Ideal) x0 x1 x2 x3 x4 x9 x10 = Cert.KernelIdeal.Result.usersOf x0 x1 x2 x3 x4 x9 x10 := by
  show addf (F := Ideal) (val_main_v8 (F := Ideal) x0 x3 x4)
    (Host.scatterAdd (F := Ideal) scatter_S100000x128_S600000x1_S600000x128_1_0_0_1 (val_main_v41 (F := Ideal)) (val_main_v42 (F := Ideal) x2)
      (val_main_v40 (F := Ideal) x1 x2 x9 x10)) = _
  rw [self_users, msgs_from_items]
  rfl

/-- The reference's second result is the kernel's function of the arguments. -/
theorem items_eq (x0 : Users) (x1 : Items) (x2 : Edges) (x5 : Mat) (x6 : Bias) (x7 : Mat) (x8 : Bias) :
    val_main_v45 (F := Ideal) x0 x1 x2 x5 x6 x7 x8 = Cert.KernelIdeal.Result.itemsOf x0 x1 x2 x5 x6 x7 x8 := by
  show addf (F := Ideal) (val_main_v13 (F := Ideal) x1 x5 x6)
    (Host.scatterAdd (F := Ideal) scatter_S50000x128_S600000x1_S600000x128_1_0_0_1 (val_main_v26 (F := Ideal)) (val_main_v27 (F := Ideal) x2)
      (val_main_v25 (F := Ideal) x0 x2 x7 x8)) = _
  rw [self_items, msgs_from_users]
  rfl

end Cert.ReferenceIdeal.RefValue

end
-- ==== Proof.lean ====
/-
  Two linear layers per feature table, messages gathered along the edges of a bipartite graph and summed by endpoint.

  With lin x w b [r, c] = Σ_k x[r, k] · w[k, c] + b[0, c], U and I the user and item feature tables and (u_e, i_e) the edges:
      users[n, ·] = lin U W_userᵀ b_user [n, ·] + Σ_{e : u_e = n} lin I W_i2uᵀ b_i2u [i_e, ·]
      items[n, ·] = lin I W_itemᵀ b_item [n, ·] + Σ_{e : i_e = n} lin U W_u2iᵀ b_u2i [u_e, ·]
  The kernel computes the four lin arrays in two regions, block of rows by block of rows (a block of rows of lin depends on
  the same rows of its table only, and the blocks tile the table), and the host gathers rows of the message arrays along the
  edges. The reference gathers rows of the TABLES along the edges and applies the message layer to the gathered rows. A layer
  maps row r to row r, so gathering before or after it gives the same rows; every other operation is the same on both sides.
  All the identities are term-by-term identities of sums over the extended reals, so finiteness of the inputs is never used.

  The ideal pass rewrote nothing, so the kernel's idealization is its own text read over the extended reals.
-/
import proofs.«115144_j54176717472255_1_alg».proof.Defs
import proofs.«115144_j54176717472255_1_alg».proof.Proof.Gen.Kernel
import proofs.«115144_j54176717472255_1_alg».proof.Proof.Gen.Kernel.Skeleton
import proofs.«115144_j54176717472255_1_alg».proof.Proof.Gen.Kernel.Launch
import proofs.«115144_j54176717472255_1_alg».proof.Proof.Gen.Kernel.Points
import proofs.«115144_j54176717472255_1_alg».proof.Proof.Gen.Kernel.Frame
import proofs.«115144_j54176717472255_1_alg».proof.Proof.Gen.KernelIdeal
import proofs.«115144_j54176717472255_1_alg».proof.Proof.Gen.KernelIdeal.Skeleton
import proofs.«115144_j54176717472255_1_alg».proof.Proof.Gen.KernelIdeal.Launch
import proofs.«115144_j54176717472255_1_alg».proof.Proof.Gen.KernelIdeal.Points
import proofs.«115144_j54176717472255_1_alg».proof.Proof.Gen.KernelIdeal.Frame
import proofs.«115144_j54176717472255_1_alg».proof.Proof.Gen.ReferenceIdeal
import proofs.«115144_j54176717472255_1_alg».proof.Proof.Gen.ReferenceIdeal.Read
import proofs.«115144_j54176717472255_1_alg».proof.Proof.Gen.Pre_finite_inputs
import proofs.«115144_j54176717472255_1_alg».proof.Proof.KernelValue
import proofs.«115144_j54176717472255_1_alg».proof.Proof.RefValue
import Idealize.ShloMosaic.Adequacy
import Idealize.ShloMosaic.Init

noncomputable section

namespace Cert.Proof

open Idealize.ShloMosaic Idealize.SL.Sem

/-- The printed kernel runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a line of host operations: its run, with the two results forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with `usersOf` and `itemsOf` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v44_eq, Cert.ReferenceIdeal.RefValue.users_eq, a0, a1, a2, a3, a4, a9, a10]
  · obtain ⟨a0, a1, a2, a3, a4, a5, a6, a7, a8, a9, a10⟩ := hagree c
    rw [Cert.ReferenceIdeal.Read.val_main_v45_eq, Cert.ReferenceIdeal.RefValue.items_eq, a0, a1, a2, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
